-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x6x3 : Shape := ⟨3, ![262144, 6, 3]⟩
abbrev S1800x72 : Shape := ⟨2, ![1800, 72]⟩
abbrev S1800 : Shape := ⟨1, ![1800]⟩
abbrev S_ : Shape := ⟨0, ![]⟩

class Facts : Prop where
  bcast_S_S262144x6x3 : S_.BroadcastsInDim S262144x6x3 (![] : Fin 0 → Fin S262144x6x3.rank)
  reducesTo_S262144x6x3_S_d0_1_2 : S262144x6x3.ReducesTo [0, 1, 2] S_
  h_S_ : 0 < S_.numel
  bcast_S_S1800x72 : S_.BroadcastsInDim S1800x72 (![] : Fin 0 → Fin S1800x72.rank)
  reducesTo_S1800x72_S_d0_1 : S1800x72.ReducesTo [0, 1] S_
  bcast_S_S1800 : S_.BroadcastsInDim S1800 (![] : Fin 0 → Fin S1800.rank)
  reducesTo_S1800_S_d0 : S1800.ReducesTo [0] S_

variable [Facts]

def fn {F : FTy → Type} [FloatOps F] (main_arg0 : FVec F S262144x6x3 .f32) (main_arg1 : FVec F S1800x72 .f32) (main_arg2 : FVec F S1800 .f32) : IVec S_ 1 :=
  let main_v0 : FVec F S262144x6x3 .f32 := Host.absf main_arg0
  let main_cst : FVec F S_ .f32 := constant S_ .f32 0x7F800000#32
  let main_v1 : FVec F S262144x6x3 .f32 := broadcastInDim S262144x6x3 ![] bcast_S_S262144x6x3 main_cst
  let main_v2 : IVec S262144x6x3 1 := cmpf .olt main_v0 main_v1
  let main_c : IVec S_ 1 := constantI S_ 1 1#1
  let main_v3 : IVec S_ 1 := (fun x v => Host.reduce IntOp.andi x v reducesTo_S262144x6x3_S_d0_1_2 h_S_) main_v2 main_c
  let main_v4 : FVec F S1800x72 .f32 := Host.absf main_arg1
  let main_cst_0 : FVec F S_ .f32 := constant S_ .f32 0x7F800000#32
  let main_v5 : FVec F S1800x72 .f32 := broadcastInDim S1800x72 ![] bcast_S_S1800x72 main_cst_0
  let main_v6 : IVec S1800x72 1 := cmpf .olt main_v4 main_v5
  let main_c_1 : IVec S_ 1 := constantI S_ 1 1#1
  let main_v7 : IVec S_ 1 := (fun x v => Host.reduce IntOp.andi x v reducesTo_S1800x72_S_d0_1 h_S_) main_v6 main_c_1
  let main_v8 : IVec S_ 1 := andi main_v3 main_v7
  let main_v9 : FVec F S1800 .f32 := Host.absf main_arg2
  let main_cst_2 : FVec F S_ .f32 := constant S_ .f32 0x7F800000#32
  let main_v10 : FVec F S1800 .f32 := broadcastInDim S1800 ![] bcast_S_S1800 main_cst_2
  let main_v11 : IVec S1800 1 := cmpf .olt main_v9 main_v10
  let main_c_3 : IVec S_ 1 := constantI S_ 1 1#1
  let main_v12 : IVec S_ 1 := (fun x v => Host.reduce IntOp.andi x v reducesTo_S1800_S_d0 h_S_) main_v11 main_c_3
  let main_v13 : IVec S_ 1 := andi main_v8 main_v12
  main_v13
-- ==== Kernel.lean ====
abbrev S262144x6x3 : Shape := ⟨3, ![262144, 6, 3]⟩
abbrev S1800x72 : Shape := ⟨2, ![1800, 72]⟩
abbrev S1800 : Shape := ⟨1, ![1800]⟩
abbrev S65536x72 : Shape := ⟨2, ![65536, 72]⟩
abbrev S1x1800 : Shape := ⟨2, ![1, 1800]⟩
abbrev S65536x1800 : Shape := ⟨2, ![65536, 1800]⟩
abbrev S1024x72 : Shape := ⟨2, ![1024, 72]⟩
abbrev S1024x1800 : Shape := ⟨2, ![1024, 1800]⟩
abbrev S11796480x5x2 : Shape := ⟨3, ![11796480, 5, 2]⟩

abbrev nBuf : Space → Nat
  | .hbm => 8
  | .vmem => 6
  | .smem => 0
  | _ => 0

abbrev bufTy : (tb : Table) → Fin (tcTables nBuf tb) → BufTy
  | .hbm, ⟨0, _⟩ => ⟨S262144x6x3, .f32⟩
  | .hbm, ⟨1, _⟩ => ⟨S1800x72, .f32⟩
  | .hbm, ⟨2, _⟩ => ⟨S1800, .f32⟩
  | .hbm, ⟨3, _⟩ => ⟨S65536x72, .f32⟩
  | .hbm, ⟨4, _⟩ => ⟨S1800x72, .bf16⟩
  | .hbm, ⟨5, _⟩ => ⟨S1x1800, .f32⟩
  | .hbm, ⟨6, _⟩ => ⟨S65536x1800, .f32⟩
  | .hbm, ⟨7, _⟩ => ⟨S11796480x5x2, .f32⟩
  | .local _ .vmem, ⟨0, _⟩ => ⟨S1024x72, .f32⟩
  | .local _ .vmem, ⟨1, _⟩ => ⟨S1024x72, .f32⟩
  | .local _ .vmem, ⟨2, _⟩ => ⟨S1800x72, .bf16⟩
  | .local _ .vmem, ⟨3, _⟩ => ⟨S1x1800, .f32⟩
  | .local _ .vmem, ⟨4, _⟩ => ⟨S1024x1800, .f32⟩
  | .local _ .vmem, ⟨5, _⟩ => ⟨S1024x1800, .f32⟩
  | _, _ => ⟨S262144x6x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1800x72 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x6x3_S65536x72 : S262144x6x3.ShapeCasts S65536x72
  bitsLt_bf16_f32 : FTy.bits .bf16 < FTy.bits .f32
  shapeCasts_S1800_S1x1800 : S1800.ShapeCasts S1x1800
  inb_S1024x72_S1024x72_0_0 : ∀ a, (![0, 0] : Fin 2 → Nat) a + S1024x72.size a ≤ S1024x72.size a
  h_S1024x72 : 0 < S1024x72.numel
  shapeCasts_S1024x72_S1024x72 : S1024x72.ShapeCasts S1024x72
  inb_S1800x72_S1800x72_0_0 : ∀ a, (![0, 0] : Fin 2 → Nat) a + S1800x72.size a ≤ S1800x72.size a
  h_S1800x72 : 0 < S1800x72.numel
  shapeCasts_S1800x72_S1800x72 : S1800x72.ShapeCasts S1800x72
  inb_S1x1800_S1x1800_0_0 : ∀ a, (![0, 0] : Fin 2 → Nat) a + S1x1800.size a ≤ S1x1800.size a
  h_S1x1800 : 0 < S1x1800.numel
  shapeCasts_S1x1800_S1x1800 : S1x1800.ShapeCasts S1x1800
  broadcasts_S1x1800_S1024x1800 : S1x1800.Broadcasts S1024x1800
  inb_S1024x1800_S1024x1800_0_0 : ∀ a, (![0, 0] : Fin 2 → Nat) a + S1024x1800.size a ≤ S1024x1800.size a
  h_S1024x1800 : 0 < S1024x1800.numel
  shapeCasts_S65536x1800_S11796480x5x2 : S65536x1800.ShapeCasts S11796480x5x2
  dot_S1024x72_S1800x72_S1024x1800_1_1_0_0_n_n_wf : DotDims.WF S1024x72 S1800x72 S1024x1800 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x72.size a ≤ S65536x72.size a
  hwx0_0 : ∀ i : grid0.Coords, EltTy.bits .f32 = 32 ∨ (Rect.block (s := S65536x72) S1024x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1800x72.size a ≤ S1800x72.size a
  hwx0_1 : ∀ i : grid0.Coords, EltTy.bits .bf16 = 32 ∨ (Rect.block (s := S1800x72) S1800x72.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1800.size a ≤ S1x1800.size a
  hwx0_2 : ∀ i : grid0.Coords, EltTy.bits .f32 = 32 ∨ (Rect.block (s := S1x1800) S1x1800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1800.size a ≤ S65536x1800.size a
  hwx0_3 : ∀ i : grid0.Coords, EltTy.bits .f32 = 32 ∨ (Rect.block (s := S65536x1800) S1024x1800.size (cc0_transform_3 i) (hinb0_3 i)).WholeWords (EltTy.packing .f32)

variable [Facts₀]

def dot_S1024x72_S1800x72_S1024x1800_1_1_0_0_n_n : DotDims S1024x72 S1800x72 S1024x1800 where
  lhsContracting := [1]
  rhsContracting := [1]
  lhsNonContracting := [0]
  rhsNonContracting := [0]
  lhsBatch := []
  rhsBatch := []
  wf := dot_S1024x72_S1800x72_S1024x1800_1_1_0_0_n_n_wf

abbrev win0_0 : Pipeline.Window sig grid0 :=
  Pipeline.Window.ofSpec (Memref.whole main_v0) S1024x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1800x72.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x6x3 : Shape := ⟨3, ![262144, 6, 3]⟩
abbrev S1800x72 : Shape := ⟨2, ![1800, 72]⟩
abbrev S1800 : Shape := ⟨1, ![1800]⟩
abbrev S65536x72 : Shape := ⟨2, ![65536, 72]⟩
abbrev S65536x1800 : Shape := ⟨2, ![65536, 1800]⟩
abbrev S1x1800 : Shape := ⟨2, ![1, 1800]⟩
abbrev S_ : Shape := ⟨0, ![]⟩
abbrev S11796480x5x2 : Shape := ⟨3, ![11796480, 5, 2]⟩

abbrev nBuf : Space → Nat
  | .hbm => 12
  | .vmem => 0
  | .smem => 0
  | _ => 0

abbrev bufTy : (tb : Table) → Fin (tcTables nBuf tb) → BufTy
  | .hbm, ⟨0, _⟩ => ⟨S262144x6x3, .f32⟩
  | .hbm, ⟨1, _⟩ => ⟨S1800x72, .f32⟩
  | .hbm, ⟨2, _⟩ => ⟨S1800, .f32⟩
  | .hbm, ⟨3, _⟩ => ⟨S65536x72, .f32⟩
  | .hbm, ⟨4, _⟩ => ⟨S65536x1800, .f32⟩
  | .hbm, ⟨5, _⟩ => ⟨S1x1800, .f32⟩
  | .hbm, ⟨6, _⟩ => ⟨S65536x1800, .f32⟩
  | .hbm, ⟨7, _⟩ => ⟨S65536x1800, .f32⟩
  | .hbm, ⟨8, _⟩ => ⟨S_, .f32⟩
  | .hbm, ⟨9, _⟩ => ⟨S65536x1800, .f32⟩
  | .hbm, ⟨10, _⟩ => ⟨S65536x1800, .f32⟩
  | .hbm, ⟨11, _⟩ => ⟨S11796480x5x2, .f32⟩
  | _, _ => ⟨S262144x6x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  shapeCasts_S262144x6x3_S65536x72 : S262144x6x3.ShapeCasts S65536x72
  bcast_S1800_S1x1800_1 : S1800.BroadcastsInDim S1x1800 (![1] : Fin 1 → Fin S1x1800.rank)
  bcast_S1x1800_S65536x1800_0_1 : S1x1800.BroadcastsInDim S65536x1800 (![0, 1] : Fin 2 → Fin S65536x1800.rank)
  bcast_S_S65536x1800 : S_.BroadcastsInDim S65536x1800 (![] : Fin 0 → Fin S65536x1800.rank)
  shapeCasts_S65536x1800_S11796480x5x2 : S65536x1800.ShapeCasts S11796480x5x2
  dot_S65536x72_S1800x72_S65536x1800_1_1_0_0_n_n_wf : DotDims.WF S65536x72 S1800x72 S65536x1800 [1] [1] [0] [0] [] []

variable [Facts₀]

def dot_S65536x72_S1800x72_S65536x1800_1_1_0_0_n_n : DotDims S65536x72 S1800x72 S65536x1800 where
  lhsContracting := [1]
  rhsContracting := [1]
  lhsNonContracting := [0]
  rhsNonContracting := [0]
  lhsBatch := []
  rhsBatch := []
  wf := dot_S65536x72_S1800x72_S65536x1800_1_1_0_0_n_n_wf

class Facts : Prop extends Facts₀ where

variable [Facts]
-- ==== Proof.ReluLinear.lean ====
/-
  The function both programs compute, over the extended reals: a linear layer with 72 inputs and 1800 outputs
  applied to every row of a row-major matrix, followed by a clip at zero, and the whole result re-read row-major
  as an array of shape [11796480, 5, 2].

  For a matrix `a` of R rows and 72 columns, a weight matrix `w` of 1800 rows and 72 columns and a bias vector
  `b` of length 1800, entry (p, q) of the result is
      max ( Σ_{k < 72} a[p, k] · w[q, k]  +  b[q] , 0 ).
  The sum is a finite sum in the commutative monoid of extended reals, so no order of summation enters; the zero
  is kept as the f32 word of +0.0 read at the ideal instance, the same word on both sides.
-/
import Idealize.ShloMosaic.PureOps.Ideal
import Idealize.ShloMosaic.Lib.ValueIdx

noncomputable section

open scoped BigOperators

namespace Cert.ReluLinear

open Idealize.ShloMosaic Idealize.ShloMosaic.ValueIdx

/-- The clip level: the f32 word of +0.0 as an extended real. -/
abbrev zero32 : EReal := Ideal.ofBits .f32 0x00000000#32

/-- Entry (p, q) of the clipped linear layer: row `p` of `a` against row `q` of `w`, plus `b[q]`, clipped at zero. -/
def entry {R : Nat} (a : (⟨2, ![R, 72]⟩ : Shape).Idx → EReal) (w : (⟨2, ![1800, 72]⟩ : Shape).Idx → EReal)
    (b : (⟨1, ![1800]⟩ : Shape).Idx → EReal) (p : Fin R) (q : Fin 1800) : EReal :=
  max ((∑ k : Fin 72, a (ix2 p k) * w (ix2 q k)) + b (ix1 q)) zero32

/-- The clipped linear layer as a whole matrix of R rows and 1800 columns. -/
def reluLinear {R : Nat} (a : (⟨2, ![R, 72]⟩ : Shape).Idx → EReal) (w : (⟨2, ![1800, 72]⟩ : Shape).Idx → EReal)
    (b : (⟨1, ![1800]⟩ : Shape).Idx → EReal) : (⟨2, ![R, 1800]⟩ : Shape).Idx → EReal :=
  fun i => entry a w b (i 0) (i 1)

theorem reluLinear_ix2 {R : Nat} (a : (⟨2, ![R, 72]⟩ : Shape).Idx → EReal) (w : (⟨2, ![1800, 72]⟩ : Shape).Idx → EReal)
    (b : (⟨1, ![1800]⟩ : Shape).Idx → EReal) (p : Fin R) (q : Fin 1800) :
    reluLinear a w b (ix2 p q) = entry a w b p q := rfl

/-- An entry depends on the row matrix only through its row `p`, on the weights only through their row `q`, and
    on the bias only at `q`: operands (row matrices of any heights) that agree there give the same entry. This is
    what lets a block of rows stand for the rows of the whole matrix. -/
theorem entry_congr {R R' : Nat} (a : (⟨2, ![R, 72]⟩ : Shape).Idx → EReal) (a' : (⟨2, ![R', 72]⟩ : Shape).Idx → EReal)
    (w w' : (⟨2, ![1800, 72]⟩ : Shape).Idx → EReal) (b b' : (⟨1, ![1800]⟩ : Shape).Idx → EReal) (p : Fin R) (p' : Fin R')
    (q : Fin 1800) (ha : ∀ k : Fin 72, a (ix2 p k) = a' (ix2 p' k)) (hw : ∀ k : Fin 72, w (ix2 q k) = w' (ix2 q k))
    (hb : b (ix1 q) = b' (ix1 q)) : entry a w b p q = entry a' w' b' p' q := by
  unfold entry
  rw [Finset.sum_congr rfl fun k _ => by rw [ha k, hw k], hb]

/-- The whole result: the input of shape [262144, 6, 3] re-read row-major as 65536 rows of 72, the clipped
    linear layer of those rows, and its 65536 × 1800 entries re-read row-major as [11796480, 5, 2]. The two
    re-readings keep every element in its row-major place. -/
def reluLinearOut (x : (⟨3, ![262144, 6, 3]⟩ : Shape).Idx → EReal) (w : (⟨2, ![1800, 72]⟩ : Shape).Idx → EReal)
    (b : (⟨1, ![1800]⟩ : Shape).Idx → EReal)
    (hin : (⟨3, ![262144, 6, 3]⟩ : Shape).ShapeCasts ⟨2, ![65536, 72]⟩)
    (hout : (⟨2, ![65536, 1800]⟩ : Shape).ShapeCasts ⟨3, ![11796480, 5, 2]⟩) :
    (⟨3, ![11796480, 5, 2]⟩ : Shape).Idx → EReal :=
  shapeCast _ (reluLinear (shapeCast (⟨2, ![65536, 72]⟩ : Shape) x hin) w b) hout

end Cert.ReluLinear

end
-- ==== Proof.BlockEntry.lean ====
/-
  What the kernel body stores, read at one entry, over the extended reals.

  At a grid point the body holds a block of 1024 rows of the row matrix (1024 × 72), the whole weight matrix
  (1800 × 72) and the bias as one row (1 × 1800). It multiplies the rows against the weight rows, contracting
  the 72-axis of both, into a zero accumulator; adds the bias row to every row; and clips at zero. At the ideal
  instance the narrowing of the rows to bf16 is the identity, the matrix product into zero is the plain finite
  sum of products, the broadcast row is read at its column, and so entry (p, q) of what is stored is
      max ( Σ_{k < 72} rows[p, k] · weights[q, k]  +  bias[0, q] , 0 ),
  the clipped linear layer's entry for the block, with the bias row read as a vector.
-/
import proofs.«115391_j60644938219640_2_alg».proof.Proof.Gen.KernelIdeal.Skeleton
import proofs.«115391_j60644938219640_2_alg».proof.Proof.ReluLinear
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx Cert.ReluLinear

/-- The body's contraction: axis 1 of the rows against axis 1 of the weights. -/
abbrev D : DotDims S1024x72 S1800x72 S1024x1800 := dot_S1024x72_S1800x72_S1024x1800_1_1_0_0_n_n

/-- The left operand is read in the output's row … -/
theorem lhs_row (i : S1024x1800.Idx) (κ : D.contr.Idx) : (D.lhsIdx i κ 0).val = (i 0).val := by
  unfold DotDims.lhsIdx
  rw [dif_neg (show ¬(0 : Fin S1024x72.rank) ∈ D.lhsBatch by decide),
    dif_pos (show (0 : Fin S1024x72.rank) ∈ D.lhsNonContracting by decide)]
  rfl
/-- … at the contracted position; -/
theorem lhs_col (i : S1024x1800.Idx) (κ : D.contr.Idx) : (D.lhsIdx i κ 1).val = (κ ⟨0, by decide⟩).val :=
  D.lhsIdx_val_of_single rfl i κ
/-- the right operand in the row named by the output's column … -/
theorem rhs_row (i : S1024x1800.Idx) (κ : D.contr.Idx) : (D.rhsIdx i κ 0).val = (i 1).val := by
  unfold DotDims.rhsIdx
  rw [dif_neg (show ¬(0 : Fin S1800x72.rank) ∈ D.rhsBatch by decide),
    dif_pos (show (0 : Fin S1800x72.rank) ∈ D.rhsNonContracting by decide)]
  rfl
/-- … at the contracted position. -/
theorem rhs_col (i : S1024x1800.Idx) (κ : D.contr.Idx) : (D.rhsIdx i κ 1).val = (κ ⟨0, by decide⟩).val :=
  D.rhsIdx_val_of_single rfl i κ

/-- The matrix product into a zero accumulator, at entry (p, q): the sum over the 72 contracted positions of
    row `p` of the left operand against row `q` of the right one. -/
theorem matmul_entry (l : FVec Ideal S1024x72 .bf16) (r : FVec Ideal S1800x72 .bf16) (p : Fin 1024) (q : Fin 1800) :
    matmul (F := Ideal) D none l r (constant (F := Ideal) S1024x1800 .f32 0x00000000#32) (ix2 p q)
      = ∑ k : Fin 72, l (ix2 p k) * r (ix2 q k) := by
  refine (Ideal.matmul_constant_zero_apply D none l r (ix2 p q)).trans ?_
  rw [← Equiv.sum_comp (contrEquiv1 D 72 rfl rfl).symm]
  refine Finset.sum_congr rfl fun k _ => ?_
  have hk := contrEquiv1_symm_val D 72 rfl rfl k
  have el : D.lhsIdx (ix2 p q) ((contrEquiv1 D 72 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 72 rfl rfl).symm k) = ix2 q k := funext fun a => Fin.ext (by
    match a with
    | ⟨0, _⟩ => exact rhs_row _ _
    | ⟨1, _⟩ => exact (rhs_col _ _).trans hk)
  rw [el, er]

/-- Entry (p, q) of what the body stores is the clipped linear layer's entry (p, q) for the loaded block of rows,
    the loaded weights and the loaded bias row read as a vector. -/
theorem stored_entry (x0 : Vec Ideal S1024x72 .f32) (x1 : Vec Ideal S1800x72 .bf16) (x2 : Vec Ideal S1x1800 .f32)
    (p : Fin 1024) (q : Fin 1800) :
    k0_pay1 (F := Ideal) x0 x1 x2 (ix2 p q) = entry (R := 1024) x0 x1 (fun j => x2 (ix2 (0 : Fin 1) (j 0))) p q := by
  unfold k0_pay1 entry
  rw [shapeCast_self, shapeCast_self, shapeCast_self]
  refine (maximumf_apply _ _ _).trans ?_
  refine congrArg₂ max ?_ rfl
  refine (addf_apply _ _ _).trans ?_
  refine congrArg₂ (· + ·) ?_ ?_
  · exact matmul_entry _ _ p q
  · exact broadcastTo_1b_ab_apply x2 _ p q

end Cert.KernelIdeal.BlockEntry

end
-- ==== Proof.ArrayValue.lean ====
/-
  The array the kernel's one region leaves, as one function of the arrays the region finds.

  The region runs over 64 grid points. Point t fetches rows 1024·t … 1024·t + 1023 of the 65536 × 72 row matrix,
  the whole 1800 × 72 weight matrix and the whole 1 × 1800 bias row, and writes back rows 1024·t … 1024·t + 1023
  of the 65536 × 1800 result. Entry (p, q) of what it writes is the clipped linear layer's entry for the fetched
  block, and that entry depends on the row matrix only through row p of the block, which is row 1024·t + p of the
  whole matrix: so every written block is the corresponding block of the clipped linear layer of the WHOLE row
  matrix. The 64 blocks tile the result (row r lies in the block of point r / 1024), hence the array ends holding
  that function everywhere.
-/
import proofs.«115391_j60644938219640_2_alg».proof.Proof.Gen.KernelIdeal.Frame
import proofs.«115391_j60644938219640_2_alg».proof.Proof.BlockEntry

set_option maxRecDepth 16384

noncomputable section

open scoped BigOperators

namespace Cert.KernelIdeal.ArrayValue

open Cert.KernelIdeal Cert.KernelIdeal.Gen Idealize.ShloMosaic Idealize.ShloMosaic.TcCoe Idealize.ShloMosaic.ValueIdx
open Idealize.SL.Sem Cert.ReluLinear
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The clipped linear layer of the arrays the region finds: the row matrix, the weights, and the bias row read as
    a vector. -/
def G (A : S65536x72.Idx → EReal) (W : S1800x72.Idx → EReal) (B : S1x1800.Idx → EReal) : S65536x1800.Idx → EReal :=
  reluLinear (R := 65536) A W (fun j => B (ix2 (0 : Fin 1) (j 0)))

/-- Where the blocks sit: at point t the row block and the result block are block t along the rows and block 0
    along the columns; the weights and the bias row are always their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block of rows fetched at point t is row 1024·t + p of the row matrix. -/
theorem rows_read (c : Dev nD) (t : Fin cfg0.N) (p : Fin 1024) (k : Fin 72) (h : t.val * 1024 + p.val < 65536) :
    iblk m c 0 t (ix2 p k) = V m c main_v0 (ix2 (⟨t.val * 1024 + p.val, h⟩ : Fin 65536) k) := by
  obtain ⟨e0, e1, -⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = t.val * 1024 + p.val; omega
  | ⟨1, _⟩ => show win0_0.index t (1 : Fin 2) * 72 + 1 * k.val = k.val; omega

/-- The block of weights fetched at any point is the whole weight matrix. -/
theorem weights_read (c : Dev nD) (t : Fin cfg0.N) (y : S1800x72.Idx) : iblk m c 1 t y = V m c main_v1 y := by
  obtain ⟨-, -, e2, e3, -⟩ := idx_facts t
  show V m c main_v1 (((cfg0.win 1).blk t).view.emb y) = _
  refine congrArg (V m c main_v1) (funext fun a => Fin.ext ?_)
  match a with
  | ⟨0, _⟩ => show win0_1.index t (0 : Fin 2) * 1800 + 1 * (y 0).val = (y 0).val; omega
  | ⟨1, _⟩ => show win0_1.index t (1 : Fin 2) * 72 + 1 * (y 1).val = (y 1).val; omega

/-- The bias block fetched at any point is the whole bias row. -/
theorem bias_read (c : Dev nD) (t : Fin cfg0.N) (y : S1x1800.Idx) : iblk m c 2 t y = V m c main_v2 y := by
  obtain ⟨-, -, -, -, e4, e5, -⟩ := idx_facts t
  show V m c main_v2 (((cfg0.win 2).blk t).view.emb y) = _
  refine congrArg (V m c main_v2) (funext fun a => Fin.ext ?_)
  match a with
  | ⟨0, _⟩ => show win0_2.index t (0 : Fin 2) * 1 + 1 * (y 0).val = (y 0).val; omega
  | ⟨1, _⟩ => show win0_2.index t (1 : Fin 2) * 1800 + 1 * (y 1).val = (y 1).val; omega

/-- What point t writes back is block t of the clipped linear layer of the whole arrays. -/
theorem flushed_eq (c : Dev nD) (t : Fin cfg0.N) :
    (dats m 0 c).flushed 3 t
      = ((cfg0.win 3).blk t).view.read (Elt Ideal) (G (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1024x72) hz, View.ld_unit_zero (S := S1800x72) hz, View.ld_unit_zero (S := S1x1800) hz]
  funext j
  obtain ⟨p, q, rfl⟩ : ∃ (p : Fin 1024) (q : Fin 1800), j = ix2 p q := ⟨j 0, j 1, eq_ix2 j⟩
  have ht : t.val < 64 := lt_of_lt_of_eq t.isLt N_0
  have hrow : t.val * 1024 + p.val < 65536 := by have := p.isLt; omega
  obtain ⟨-, -, -, -, -, -, e6, e7⟩ := idx_facts t
  have hemb : ((cfg0.win 3).blk t).view.emb (ix2 p q) = ix2 (⟨t.val * 1024 + p.val, hrow⟩ : Fin 65536) q :=
    funext fun a => Fin.ext (by
      match a with
      | ⟨0, _⟩ => show win0_3.index t (0 : Fin 2) * 1024 + 1 * p.val = t.val * 1024 + p.val; omega
      | ⟨1, _⟩ => show win0_3.index t (1 : Fin 2) * 1800 + 1 * q.val = q.val; omega)
  show k0_pay1 (F := Ideal) (iblk m c 0 t) (iblk m c 1 t) (iblk m c 2 t) (ix2 p q)
    = G (V m c main_v0) (V m c main_v1) (V m c main_v2) (((cfg0.win 3).blk t).view.emb (ix2 p q))
  rw [hemb]
  refine (BlockEntry.stored_entry (iblk m c 0 t) (iblk m c 1 t) (iblk m c 2 t) p q).trans ?_
  exact entry_congr (iblk m c 0 t) (V m c main_v0) (iblk m c 1 t) (V m c main_v1)
    (fun j => iblk m c 2 t (ix2 (0 : Fin 1) (j 0))) (fun j => V m c main_v2 (ix2 (0 : Fin 1) (j 0))) p _ q
    (fun k => rows_read m c t p k hrow) (fun k => weights_read m c t (ix2 q k)) (bias_read m c t (ix2 (0 : Fin 1) q))

/-- An index of the result lies in point t's block iff its coordinates lie in the block's ranges. -/
theorem mem_blk (t : Fin cfg0.N) (i : S65536x1800.Idx) :
    i ∈ ((cfg0.win 3).blk t).view.set ↔ ∀ a : Fin 2, win0_3.index t a * S1024x1800.size a ≤ (i a).val
      ∧ (i a).val < win0_3.index t a * S1024x1800.size a + S1024x1800.size a := by
  show i ∈ ((View.whole main_v3).slice (win0_3.rect t)).set ↔ _
  rw [View.set_slice_whole, Rect.mem_set_unit]
  exact Iff.rfl

/-- The blocks tile the result: row r lies in the block of point r / 1024. -/
theorem cover (i : S65536x1800.Idx) :
    ∃ t : Fin cfg0.N, (cfg0.win 3).flush t = true ∧ i ∈ ((cfg0.win 3).blk t).view.set := by
  have hi0 : (i 0).val < 65536 := (i 0).isLt
  have hi1 : (i 1).val < 1800 := (i 1).isLt
  have hN : cfg0.N = 64 := N_0
  have hlt : (i 0).val / 1024 < cfg0.N := by rw [hN]; omega
  obtain ⟨-, -, -, -, -, -, e6, e7⟩ := idx_facts ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, hlt⟩ (1 : Fin 2) * 1800 ≤ (i 1).val
      ∧ (i 1).val < win0_3.index ⟨(i 0).val / 1024, hlt⟩ (1 : Fin 2) * 1800 + 1800
    rw [e7]; omega

/-- After the region the result array holds the clipped linear layer of the arrays the region found. -/
theorem final (c : Dev nD) :
    (dats m 0 c).arrAt 3 cfg0.N = G (V m c main_v0) (V m c main_v1) (V m c main_v2) :=
  (dats m 0 c).arrAt_eq_of_cover 3 _ (fun t _ => flushed_eq m c t) cover

end Cert.KernelIdeal.ArrayValue

end
-- ==== Proof.KernelRun.lean ====
/-
  The kernel program's run, read as a value over the extended reals.

  Before its one region the program re-reads the input of shape [262144, 6, 3] row-major as 65536 rows of 72,
  narrows the weights to bf16 (the identity at the ideal instance) and re-reads the bias vector as one row. The
  region leaves the clipped linear layer of those arrays in the 65536 × 1800 result (the array-value module), and
  the one operation after the region re-reads that result row-major as [11796480, 5, 2]. Substituting the three
  arrays the region finds by what the first three operations wrote gives the whole-result function of the
  program's arguments.
-/
import proofs.«115391_j60644938219640_2_alg».proof.Proof.ArrayValue
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.ShloMosaic.ValueIdx
open Idealize.SL.Sem Cert.ReluLinear Idealize.ShloMosaic.StableHlo
open Idealize.ShloMosaic.Pipeline (Dat Cfg Window)

variable (m : (ℓ : Loc nD τ sig) → Buf (Elt Ideal) ℓ) (ρ : Dev nD → PrngReg)

/-- The region finds the input re-read as 65536 rows of 72 … -/
theorem rows_found (c : Dev nD) :
    (V m c main_v0 : S65536x72.Idx → EReal)
      = shapeCast S65536x72 (m ((c : Thread nD τ).loc main_arg0)) shapeCasts_S262144x6x3_S65536x72 := by
  show StableHlo.after hostOps0 (fun b => m (c, b)) (Proc.devRef .tc main_v0) = _
  after_results
  rfl

/-- … the weights as they were launched (narrowing to bf16 changes no extended real) … -/
theorem weights_found (c : Dev nD) :
    (V m c main_v1 : S1800x72.Idx → EReal) = m ((c : Thread nD τ).loc main_arg1) := by
  show StableHlo.after hostOps0 (fun b => m (c, b)) (Proc.devRef .tc main_v1) = _
  after_results
  rfl

/-- … and the bias vector re-read as one row. -/
theorem bias_found (c : Dev nD) :
    (V m c main_v2 : S1x1800.Idx → EReal)
      = shapeCast S1x1800 (m ((c : Thread nD τ).loc main_arg2)) shapeCasts_S1800_S1x1800 := by
  show StableHlo.after hostOps0 (fun b => m (c, b)) (Proc.devRef .tc main_v2) = _
  after_results
  rfl

/-- The operation after the region re-reads the region's result array as [11796480, 5, 2]. -/
theorem tail_value (c : Dev nD) :
    (Pipeline.afterTail₀ cfgs (dats m) 0 (V0 m) [hostOps1] c main_v4 : S11796480x5x2.Idx → EReal)
      = shapeCast S11796480x5x2 ((dats m 0 c).arrAt 3 cfg0.N) shapeCasts_S65536x1800_S11796480x5x2 := by
  unfold Pipeline.afterTail₀
  show StableHlo.after hostOps1 _ (Proc.devRef .tc main_v4) = _
  after_results
  exact congrArg (fun z => shapeCast S11796480x5x2 z shapeCasts_S65536x1800_S11796480x5x2)
    (Pipeline.withArrays_arr spec0 launch0.win.arr_inj c (V0 m c) (fun w => (dats m 0 c).arrAt w (cfgs 0).N) 3)

/-- The bias row read back as a vector is the bias vector. -/
theorem bias_row_vector (b : S1800.Idx → EReal) :
    (fun j : S1800.Idx => shapeCast S1x1800 b shapeCasts_S1800_S1x1800 (ix2 (0 : Fin 1) (j 0))) = b :=
  funext fun j => (shapeCast_a_1a_apply b shapeCasts_S1800_S1x1800 (0 : Fin 1) (j 0)).trans (congrArg b (eq_ix1 j).symm)

/-- The program's result buffer after the run is the whole-result function of the launch arguments. -/
theorem result_value (c : Dev nD) :
    (Pipeline.afterTail₀ cfgs (dats m) 0 (V0 m) [hostOps1] c main_v4 : S11796480x5x2.Idx → EReal)
      = reluLinearOut (m ((c : Thread nD τ).loc main_arg0)) (m ((c : Thread nD τ).loc main_arg1))
          (m ((c : Thread nD τ).loc main_arg2)) shapeCasts_S262144x6x3_S65536x72 shapeCasts_S65536x1800_S11796480x5x2 := by
  rw [tail_value, ArrayValue.final, rows_found, weights_found, bias_found]
  unfold reluLinearOut ArrayValue.G
  rw [bias_row_vector]

/-- Every weakly fair execution of the program terminates with its result at the whole-result function of the
    launch arguments and the arguments unchanged. -/
theorem run : θ_run defs (onTc (τ := τ) (main (F := Ideal))) ⟨m, fun _ => 0, ρ⟩ fun r => ∀ c : Dev nD,
      r.2.mem ((c.tc : Thread nD τ).loc main_v4)
        = reluLinearOut (m ((c.tc : Thread nD τ).loc main_arg0)) (m ((c.tc : Thread nD τ).loc main_arg1))
            (m ((c.tc : Thread nD τ).loc main_arg2)) shapeCasts_S262144x6x3_S65536x72 shapeCasts_S65536x1800_S11796480x5x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference, read entry by entry over the extended reals, is the clipped linear layer.

  The reference re-reads the input as 65536 rows of 72, contracts the 72-axis of the rows against the 72-axis of
  the weights (a plain finite sum of products at the ideal instance), adds the bias broadcast along the rows,
  takes the maximum with a broadcast zero and re-reads the result as [11796480, 5, 2]. Entry (p, q) of the
  65536 × 1800 intermediate is therefore  max ( Σ_{k < 72} rows[p, k] · w[q, k] + b[q] , 0 ).
-/
import proofs.«115391_j60644938219640_2_alg».proof.Proof.Gen.ReferenceIdeal.Read
import proofs.«115391_j60644938219640_2_alg».proof.Proof.ReluLinear

noncomputable section

open scoped BigOperators

namespace Cert.ReferenceIdeal.RefValue

open Cert.ReferenceIdeal Cert.ReferenceIdeal.Gen Cert.ReferenceIdeal.Read Idealize.ShloMosaic Idealize.ShloMosaic.ValueIdx
open Cert.ReluLinear

/-- The clipped sum before the last re-reading is the clipped linear layer of the re-read input. -/
theorem clipped_eq (x0 : FVec Ideal S262144x6x3 .f32) (x1 : FVec Ideal S1800x72 .f32) (x2 : FVec Ideal S1800 .f32) :
    val_main_v5 (F := Ideal) x0 x1 x2 = reluLinear (R := 65536) (val_main_v0 (F := Ideal) x0) x1 x2 := by
  funext i
  obtain ⟨p, q, rfl⟩ : ∃ (p : Fin 65536) (q : Fin 1800), i = ix2 p q := ⟨i 0, i 1, eq_ix2 i⟩
  have hl : ∀ k : Fin 72, lidx_main_v1 (ix2 p q) k = ix2 p k := fun k => funext fun a => Fin.ext (by
    match a with | ⟨0, _⟩ => rfl | ⟨1, _⟩ => rfl)
  have hr : ∀ k : Fin 72, ridx_main_v1 (ix2 p q) k = ix2 q k := fun k => funext fun a => Fin.ext (by
    match a with | ⟨0, _⟩ => rfl | ⟨1, _⟩ => rfl)
  have hb : idx_main_v2 (idx_main_v3 (ix2 p q)) = ix1 q := funext fun a => Fin.ext (by
    match a with | ⟨0, _⟩ => rfl)
  rw [val_main_v5_apply, val_main_v4_apply, val_main_v1_apply, val_main_v3_apply, val_main_v2_apply,
    val_main_call0_v0_apply, val_main_call0_cst_apply]
  simp only [hl, hr, hb]
  rfl

/-- The reference's result is the whole-result function of its arguments. -/
theorem result_eq (x0 : FVec Ideal S262144x6x3 .f32) (x1 : FVec Ideal S1800x72 .f32) (x2 : FVec Ideal S1800 .f32) :
    val_main_v6 (F := Ideal) x0 x1 x2
      = reluLinearOut x0 x1 x2 shapeCasts_S262144x6x3_S65536x72 shapeCasts_S65536x1800_S11796480x5x2 := by
  unfold val_main_v6 reluLinearOut
  rw [clipped_eq]
  rfl

end Cert.ReferenceIdeal.RefValue

end
-- ==== Proof.lean ====
/-
  The kernel computes, for 65536 rows of 72 numbers cut row-major out of the input, a linear layer into 1800
  outputs followed by a clip at zero, 1024 rows per grid point, and returns the 65536 × 1800 results re-read
  row-major as [11796480, 5, 2]; the reference computes the same rows with one contraction over all 65536 rows.

  Over the extended reals both are the function
      out[p, q] = max ( Σ_{k < 72} rows[p, k] · W[q, k] + b[q] , 0 )
  followed by the same re-reading: the kernel's narrowing of both operands to bf16 is the identity there, its
  matrix product into a zero accumulator and the reference's contraction are the same finite sum of the same
  products, and an entry of the kernel's block depends only on its own row, so tiling the rows changes nothing.
  No algebraic law beyond the equality of these terms is used, so the precondition on the inputs is never opened.

  The three programs' frames are the generated frame runs (for the reference: its generated run with the result
  dropped); the idealization rewrote no operation, so there is nothing to preserve; the value claim puts the
  kernel program's run (read back through the region's blocks and the operations around it) beside the
  reference's run (read one operation at a time), both at the same whole-result function of the arguments.
-/
import proofs.«115391_j60644938219640_2_alg».proof.Defs
import proofs.«115391_j60644938219640_2_alg».proof.Proof.Gen.Kernel
import proofs.«115391_j60644938219640_2_alg».proof.Proof.Gen.Kernel.Skeleton
import proofs.«115391_j60644938219640_2_alg».proof.Proof.Gen.Kernel.Launch
import proofs.«115391_j60644938219640_2_alg».proof.Proof.Gen.Kernel.Points
import proofs.«115391_j60644938219640_2_alg».proof.Proof.Gen.Kernel.Frame
import proofs.«115391_j60644938219640_2_alg».proof.Proof.Gen.KernelIdeal
import proofs.«115391_j60644938219640_2_alg».proof.Proof.Gen.KernelIdeal.Skeleton
import proofs.«115391_j60644938219640_2_alg».proof.Proof.Gen.KernelIdeal.Launch
import proofs.«115391_j60644938219640_2_alg».proof.Proof.Gen.KernelIdeal.Points
import proofs.«115391_j60644938219640_2_alg».proof.Proof.Gen.KernelIdeal.Frame
import proofs.«115391_j60644938219640_2_alg».proof.Proof.Gen.ReferenceIdeal
import proofs.«115391_j60644938219640_2_alg».proof.Proof.Gen.Pre_finite_inputs
import proofs.«115391_j60644938219640_2_alg».proof.Proof.Gen.ReferenceIdeal.Run
import proofs.«115391_j60644938219640_2_alg».proof.Proof.Gen.ReferenceIdeal.Read
import proofs.«115391_j60644938219640_2_alg».proof.Proof.KernelRun
import proofs.«115391_j60644938219640_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with their result at the whole-result function
    of the kernel program's arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
